-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x15 : Shape := ⟨2, ![2000000, 15]⟩
abbrev S_ : Shape := ⟨0, ![]⟩

class Facts : Prop where
  bcast_S_S2000000x15 : S_.BroadcastsInDim S2000000x15 (![] : Fin 0 → Fin S2000000x15.rank)
  reducesTo_S2000000x15_S_d0_1 : S2000000x15.ReducesTo [0, 1] S_
  h_S_ : 0 < S_.numel

variable [Facts]

def fn {F : FTy → Type} [FloatOps F] (main_arg0 : FVec F S2000000x15 .f32) : IVec S_ 1 :=
  let main_v0 : FVec F S2000000x15 .f32 := Host.absf main_arg0
  let main_cst : FVec F S_ .f32 := constant S_ .f32 0x7F800000#32
  let main_v1 : FVec F S2000000x15 .f32 := broadcastInDim S2000000x15 ![] bcast_S_S2000000x15 main_cst
  let main_v2 : IVec S2000000x15 1 := cmpf .olt main_v0 main_v1
  let main_c : IVec S_ 1 := constantI S_ 1 1#1
  let main_v3 : IVec S_ 1 := (fun x v => Host.reduce IntOp.andi x v reducesTo_S2000000x15_S_d0_1 h_S_) main_v2 main_c
  main_v3
-- ==== Kernel.lean ====
abbrev S2000000x15 : Shape := ⟨2, ![2000000, 15]⟩
abbrev S10000x15 : Shape := ⟨2, ![10000, 15]⟩
abbrev S10000x1 : Shape := ⟨2, ![10000, 1]⟩
abbrev S2000000x15x1 : Shape := ⟨3, ![2000000, 15, 1]⟩

abbrev nBuf : Space → Nat
  | .hbm => 3
  | .vmem => 4
  | .smem => 0
  | _ => 0

abbrev bufTy : (tb : Table) → Fin (tcTables nBuf tb) → BufTy
  | .hbm, ⟨0, _⟩ => ⟨S2000000x15, .f32⟩
  | .hbm, ⟨1, _⟩ => ⟨S2000000x15, .f32⟩
  | .hbm, ⟨2, _⟩ => ⟨S2000000x15x1, .f32⟩
  | .local _ .vmem, ⟨0, _⟩ => ⟨S10000x15, .f32⟩
  | .local _ .vmem, ⟨1, _⟩ => ⟨S10000x15, .f32⟩
  | .local _ .vmem, ⟨2, _⟩ => ⟨S10000x15, .f32⟩
  | .local _ .vmem, ⟨3, _⟩ => ⟨S10000x15, .f32⟩
  | _, _ => ⟨S2000000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S10000x15_S10000x15_0_0 : ∀ a, (![0, 0] : Fin 2 → Nat) a + S10000x15.size a ≤ S10000x15.size a
  h_S10000x15 : 0 < S10000x15.numel
  slices_S10000x15_o0_0_S10000x1 : S10000x15.Slices ![0, 0] S10000x1
  slices_S10000x15_o0_1_S10000x1 : S10000x15.Slices ![0, 1] S10000x1
  slices_S10000x15_o0_2_S10000x1 : S10000x15.Slices ![0, 2] S10000x1
  slices_S10000x15_o0_4_S10000x1 : S10000x15.Slices ![0, 4] S10000x1
  slices_S10000x15_o0_3_S10000x1 : S10000x15.Slices ![0, 3] S10000x1
  slices_S10000x15_o0_6_S10000x1 : S10000x15.Slices ![0, 6] S10000x1
  slices_S10000x15_o0_5_S10000x1 : S10000x15.Slices ![0, 5] S10000x1
  slices_S10000x15_o0_8_S10000x1 : S10000x15.Slices ![0, 8] S10000x1
  slices_S10000x15_o0_7_S10000x1 : S10000x15.Slices ![0, 7] S10000x1
  slices_S10000x15_o0_10_S10000x1 : S10000x15.Slices ![0, 10] S10000x1
  slices_S10000x15_o0_9_S10000x1 : S10000x15.Slices ![0, 9] S10000x1
  slices_S10000x15_o0_12_S10000x1 : S10000x15.Slices ![0, 12] S10000x1
  slices_S10000x15_o0_11_S10000x1 : S10000x15.Slices ![0, 11] S10000x1
  slices_S10000x15_o0_14_S10000x1 : S10000x15.Slices ![0, 14] S10000x1
  slices_S10000x15_o0_13_S10000x1 : S10000x15.Slices ![0, 13] S10000x1
  concatenates_S10000x1_S10000x1_S10000x1_S10000x1_S10000x1_S10000x1_S10000x1_S10000x1_S10000x1_S10000x1_S10000x1_S10000x1_S10000x1_S10000x1_S10000x1_S10000x15_d1 : Shape.Concatenates [S10000x1, S10000x1, S10000x1, S10000x1, S10000x1, S10000x1, S10000x1, S10000x1, S10000x1, S10000x1, S10000x1, S10000x1, S10000x1, S10000x1, S10000x1] S10000x15 1
  bcast_S2000000x15_S2000000x15x1_0_1 : S2000000x15.BroadcastsInDim S2000000x15x1 (![0, 1] : Fin 2 → Fin S2000000x15x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x15.size a ≤ S2000000x15.size a
  hwx0_0 : ∀ i : grid0.Coords, EltTy.bits .f32 = 32 ∨ (Rect.block (s := S2000000x15) S10000x15.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x15.size a ≤ S2000000x15.size a
  hwx0_1 : ∀ i : grid0.Coords, EltTy.bits .f32 = 32 ∨ (Rect.block (s := S2000000x15) S10000x15.size (cc0_transform_1 i) (hinb0_1 i)).WholeWords (EltTy.packing .f32)

variable [Facts₀]

abbrev win0_0 : Pipeline.Window sig grid0 :=
  Pipeline.Window.ofSpec (Memref.whole main_arg0) S10000x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x15.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x15 : Shape := ⟨2, ![2000000, 15]⟩
abbrev S15 : Shape := ⟨1, ![15]⟩
abbrev S_ : Shape := ⟨0, ![]⟩
abbrev S15x1 : Shape := ⟨2, ![15, 1]⟩
abbrev S1 : Shape := ⟨1, ![1]⟩
abbrev S1x1 : Shape := ⟨2, ![1, 1]⟩
abbrev S2000000x15x1 : Shape := ⟨3, ![2000000, 15, 1]⟩

abbrev nBuf : Space → Nat
  | .hbm => 28
  | .vmem => 0
  | .smem => 0
  | _ => 0

abbrev bufTy : (tb : Table) → Fin (tcTables nBuf tb) → BufTy
  | .hbm, ⟨0, _⟩ => ⟨S2000000x15, .f32⟩
  | .hbm, ⟨1, _⟩ => ⟨S15, .i32⟩
  | .hbm, ⟨2, _⟩ => ⟨S_, .i32⟩
  | .hbm, ⟨3, _⟩ => ⟨S15, .i32⟩
  | .hbm, ⟨4, _⟩ => ⟨S15, .i1⟩
  | .hbm, ⟨5, _⟩ => ⟨S_, .i32⟩
  | .hbm, ⟨6, _⟩ => ⟨S15, .i32⟩
  | .hbm, ⟨7, _⟩ => ⟨S15, .i32⟩
  | .hbm, ⟨8, _⟩ => ⟨S15, .i32⟩
  | .hbm, ⟨9, _⟩ => ⟨S15x1, .i32⟩
  | .hbm, ⟨10, _⟩ => ⟨S1, .i32⟩
  | .hbm, ⟨11, _⟩ => ⟨S_, .i32⟩
  | .hbm, ⟨12, _⟩ => ⟨S15x1, .i32⟩
  | .hbm, ⟨13, _⟩ => ⟨S15x1, .i1⟩
  | .hbm, ⟨14, _⟩ => ⟨S1x1, .i32⟩
  | .hbm, ⟨15, _⟩ => ⟨S15x1, .i32⟩
  | .hbm, ⟨16, _⟩ => ⟨S15x1, .i1⟩
  | .hbm, ⟨17, _⟩ => ⟨S15x1, .i1⟩
  | .hbm, ⟨18, _⟩ => ⟨S_, .i1⟩
  | .hbm, ⟨19, _⟩ => ⟨S15, .i1⟩
  | .hbm, ⟨20, _⟩ => ⟨S2000000x15, .f32⟩
  | .hbm, ⟨21, _⟩ => ⟨S2000000x15, .i1⟩
  | .hbm, ⟨22, _⟩ => ⟨S_, .f32⟩
  | .hbm, ⟨23, _⟩ => ⟨S2000000x15, .f32⟩
  | .hbm, ⟨24, _⟩ => ⟨S2000000x15, .f32⟩
  | .hbm, ⟨25, _⟩ => ⟨S2000000x15, .f32⟩
  | .hbm, ⟨26, _⟩ => ⟨S2000000x15, .f32⟩
  | .hbm, ⟨27, _⟩ => ⟨S2000000x15x1, .f32⟩
  | _, _ => ⟨S2000000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]

class Facts₀ : Prop where
  bcast_S_S15 : S_.BroadcastsInDim S15 (![] : Fin 0 → Fin S15.rank)
  bcast_S15_S15x1_0 : S15.BroadcastsInDim S15x1 (![0] : Fin 1 → Fin S15x1.rank)
  bcast_S_S15x1 : S_.BroadcastsInDim S15x1 (![] : Fin 0 → Fin S15x1.rank)
  bcast_S1_S1x1_1 : S1.BroadcastsInDim S1x1 (![1] : Fin 1 → Fin S1x1.rank)
  bcast_S1x1_S15x1_0_1 : S1x1.BroadcastsInDim S15x1 (![0, 1] : Fin 2 → Fin S15x1.rank)
  reducesTo_S15x1_S15_d1 : S15x1.ReducesTo [1] S15
  h_S_ : 0 < S_.numel
  bcast_S15_S2000000x15_1 : S15.BroadcastsInDim S2000000x15 (![1] : Fin 1 → Fin S2000000x15.rank)
  bcast_S_S2000000x15 : S_.BroadcastsInDim S2000000x15 (![] : Fin 0 → Fin S2000000x15.rank)
  bcast_S2000000x15_S2000000x15x1_0_1 : S2000000x15.BroadcastsInDim S2000000x15x1 (![0, 1] : Fin 2 → Fin S2000000x15x1.rank)
  gather_S2000000x15_S15x1_S2000000x15_0_1_n_n_1_1_20000001_wf : GatherDims.WF S2000000x15 S15x1 S2000000x15 [0] [1] [] [1] [] 1 ![2000000, 1]

variable [Facts₀]

def gather_S2000000x15_S15x1_S2000000x15_0_1_n_n_1_1_20000001 : GatherDims S2000000x15 S15x1 S2000000x15 where
  offsetDims := [0]
  collapsedSliceDims := [1]
  operandBatchingDims := []
  startIndicesBatchingDims := []
  startIndexMap := [1]
  indexVectorDim := 1
  sliceSizes := ![2000000, 1]
  wf := gather_S2000000x15_S15x1_S2000000x15_0_1_n_n_1_1_20000001_wf

class Facts : Prop extends Facts₀ where

variable [Facts]
-- ==== Proof.PairSpec.lean ====
/-
  The function both programs compute, stated once over literal shapes.

  The fifteen keypoints carry a left/right pairing `partner`: keypoints 0, 1, 2 are their own partners and
  (3 4), (5 6), (7 8), (9 10), (11 12), (13 14) are swapped. For an array `x` of two million rows of fifteen
  extended reals, `pairSq x` holds at row `b`, keypoint `k` the square of the difference between the entry
  and its partner's, `(x[b,k] - x[b,partner k]) * (x[b,k] - x[b,partner k])`. Both programs then append a unit
  axis to it; that last step is the same text on both sides and is never opened.
-/
import Idealize.ShloMosaic.PureOps.Ideal
import Idealize.ShloMosaic.Lib.ValueIdx

noncomputable section

namespace Cert.SymPair

open Idealize.ShloMosaic Idealize.ShloMosaic.ValueIdx

/-- The partner of each keypoint: an involution of `Fin 15` fixing 0, 1, 2 and swapping 3↔4, 5↔6, 7↔8, 9↔10,
    11↔12, 13↔14. -/
def partner : Fin 15 → Fin 15 := ![0, 1, 2, 4, 3, 6, 5, 8, 7, 10, 9, 12, 11, 14, 13]

/-- The square of the difference of two extended reals. -/
def sqDiff (a b : EReal) : EReal := (a - b) * (a - b)

/-- Entry `(b, k)` is the squared difference between `x[b, k]` and its partner `x[b, partner k]`. -/
def pairSq (x : (⟨2, ![2000000, 15]⟩ : Shape).Idx → Elt Ideal .f32) : (⟨2, ![2000000, 15]⟩ : Shape).Idx → Elt Ideal .f32 :=
  fun i => sqDiff (x i) (x (ix2 ⟨(i 0).val, idx2_lt0 i⟩ (partner ⟨(i 1).val, idx2_lt1 i⟩)))

theorem pairSq_apply (x : (⟨2, ![2000000, 15]⟩ : Shape).Idx → Elt Ideal .f32) (b : Fin 2000000) (k : Fin 15) :
    pairSq x (ix2 b k) = sqDiff (x (ix2 b k)) (x (ix2 b (partner k))) := rfl

end Cert.SymPair

end
-- ==== Proof.KernelPayload.lean ====
/-
  What the kernel body stores, read at an index of its block.

  The body loads a block `x0` of ten thousand rows by fifteen keypoints, cuts it into its fifteen columns, lays the
  columns side by side again in the partners' order (column `q` of the new block is column `partner q` of `x0`),
  subtracts the result from `x0` and squares. So at row `p`, keypoint `q` the stored value is the squared difference
  of `x0[p, q]` and `x0[p, partner q]`.
-/
import proofs.«154540_j80831284510870_1_alg».proof.Proof.Gen.KernelIdeal.Skeleton
import proofs.«154540_j80831284510870_1_alg».proof.Proof.PairSpec
import Idealize.ShloMosaic.Lib.Pipeline.Value

noncomputable section

namespace Cert.KernelIdeal.Pay

open Idealize.ShloMosaic Idealize.ShloMosaic.ValueIdx Cert.KernelIdeal Cert.KernelIdeal.Gen Cert.SymPair
open Cert.KernelIdeal.Facts₀

/-- One piece of a side-by-side arrangement of one-column pieces: if piece `k` of the list is column `c` of `x0`, the
    arrangement's column `k` is `x0`'s column `c`, row by row. -/
theorem column_of_piece (x0 : Vec Ideal S10000x15 .f32) (xs : List ((s : Shape) × (s.Idx → Elt Ideal .f32)))
    (h : Shape.Concatenates (xs.map (·.1)) S10000x15 1) (p : Fin 10000) (k c : Nat) (hk : k < 15) (hc : c < 15)
    (hlen : xs.length = 15) (hs : S10000x15.Slices ![0, c] S10000x1)
    (hxk : xs[k]'(hlen ▸ hk) = ⟨S10000x1, extractStridedSlice S10000x1 ![0, c] x0 hs⟩)
    (hpre : (((xs.take k).map (·.1)).map fun s => if h : s.rank = S10000x15.rank then s.size ((1 : Fin S10000x15.rank).cast h.symm) else 0).sum = k) :
    concatenate S10000x15 1 xs h (ix2 p ⟨k, hk⟩) = x0 (ix2 p ⟨c, hc⟩) := by
  refine (concatenate_apply_piece (1 : Fin S10000x15.rank) xs h (ix2 p ⟨k, hk⟩) k (hlen ▸ hk) S10000x1 _ hxk rfl k hpre
    (ix2 p (0 : Fin 1)) (fun b hb => ?_) ?_).trans ?_
  · match b with
    | ⟨0, _⟩ => rfl
    | ⟨1, _⟩ => exact absurd rfl hb
  · rfl
  · refine extractStridedSlice_apply _ _ _ _ (ix2 p ⟨c, hc⟩) (fun a => ?_)
    match a with
    | ⟨0, _⟩ => exact (Nat.zero_add _).symm
    | ⟨1, _⟩ => rfl

set_option maxHeartbeats 2000000 in
/-- THE STORED VALUE at row `p`, keypoint `q`: the squared difference of the block's entry and its partner's. -/
theorem pay_apply (x0 : Vec Ideal S10000x15 .f32) (p : Fin 10000) (q : Fin 15) :
    k0_pay1 (F := Ideal) x0 (ix2 p q) = sqDiff (x0 (ix2 p q)) (x0 (ix2 p (partner q))) := by
  unfold k0_pay1
  show (x0 (ix2 p q) - concatenate S10000x15 1 _ _ (ix2 p q)) * (x0 (ix2 p q) - concatenate S10000x15 1 _ _ (ix2 p q))
    = (x0 (ix2 p q) - x0 (ix2 p (partner q))) * (x0 (ix2 p q) - x0 (ix2 p (partner q)))
  refine congrArg (fun z : EReal => (x0 (ix2 p q) - z) * (x0 (ix2 p q) - z)) ?_
  match q with
  | ⟨0, _⟩ => exact column_of_piece x0 _ _ p 0 0 (by decide) (by decide) rfl _ rfl rfl
  | ⟨1, _⟩ => exact column_of_piece x0 _ _ p 1 1 (by decide) (by decide) rfl _ rfl rfl
  | ⟨2, _⟩ => exact column_of_piece x0 _ _ p 2 2 (by decide) (by decide) rfl _ rfl rfl
  | ⟨3, _⟩ => exact column_of_piece x0 _ _ p 3 4 (by decide) (by decide) rfl _ rfl rfl
  | ⟨4, _⟩ => exact column_of_piece x0 _ _ p 4 3 (by decide) (by decide) rfl _ rfl rfl
  | ⟨5, _⟩ => exact column_of_piece x0 _ _ p 5 6 (by decide) (by decide) rfl _ rfl rfl
  | ⟨6, _⟩ => exact column_of_piece x0 _ _ p 6 5 (by decide) (by decide) rfl _ rfl rfl
  | ⟨7, _⟩ => exact column_of_piece x0 _ _ p 7 8 (by decide) (by decide) rfl _ rfl rfl
  | ⟨8, _⟩ => exact column_of_piece x0 _ _ p 8 7 (by decide) (by decide) rfl _ rfl rfl
  | ⟨9, _⟩ => exact column_of_piece x0 _ _ p 9 10 (by decide) (by decide) rfl _ rfl rfl
  | ⟨10, _⟩ => exact column_of_piece x0 _ _ p 10 9 (by decide) (by decide) rfl _ rfl rfl
  | ⟨11, _⟩ => exact column_of_piece x0 _ _ p 11 12 (by decide) (by decide) rfl _ rfl rfl
  | ⟨12, _⟩ => exact column_of_piece x0 _ _ p 12 11 (by decide) (by decide) rfl _ rfl rfl
  | ⟨13, _⟩ => exact column_of_piece x0 _ _ p 13 14 (by decide) (by decide) rfl _ rfl rfl
  | ⟨14, _⟩ => exact column_of_piece x0 _ _ p 14 13 (by decide) (by decide) rfl _ rfl rfl

end Cert.KernelIdeal.Pay

end
-- ==== Proof.KernelValue.lean ====
/-
  What the kernel's program leaves in its result, as one function of its argument.

  The grid has 200 points; point `t` reads rows `10000 t .. 10000 t + 9999` of the argument (all fifteen keypoints)
  and writes the same rows of the intermediate array. A row's partner entries lie in the same row, hence in the same
  block, so what point `t` writes back is block `t` of `pairSq` of the whole argument array. The 200 blocks tile the
  two million rows, so the intermediate array ends holding `pairSq` of the argument; the one host operation after
  the region appends the unit axis to it.
-/
import proofs.«154540_j80831284510870_1_alg».proof.Proof.Gen.KernelIdeal.Frame
import proofs.«154540_j80831284510870_1_alg».proof.Proof.KernelPayload
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.SymPair
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- Both windows' block index at point `t` is `(t, 0)`: decided over the 200 points. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem point_lt (t : Fin cfg0.N) : t.val < 200 := lt_of_lt_of_eq t.isLt N_0

/-- The input block at point `t`, row `p`, keypoint `q` is the argument array's row `10000 t + p`. -/
theorem in_block_apply (c : Dev nD) (t : Fin cfg0.N) (p : Fin 10000) (q : Fin 15) (hr : t.val * 10000 + p.val < 2000000) :
    iblk m c 0 t (ix2 p q) = V m c main_arg0 (ix2 ⟨t.val * 10000 + p.val, hr⟩ q) := by
  obtain ⟨e0, e1, -, -⟩ := block_index t
  show V m c main_arg0 (((cfg0.win 0).blk t).view.emb (ix2 p q)) = _
  refine congrArg (V m c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 15 + 1 * q.val = q.val; omega

/-- The output block's row `p`, keypoint `q` at point `t` sits at row `10000 t + p` of the intermediate array. -/
theorem out_block_emb (t : Fin cfg0.N) (p : Fin 10000) (q : Fin 15) (hr : t.val * 10000 + p.val < 2000000) :
    ((cfg0.win 1).blk t).view.emb (ix2 p q) = ix2 ⟨t.val * 10000 + p.val, hr⟩ q := by
  obtain ⟨-, -, e2, e3⟩ := block_index t
  refine funext fun a => Fin.ext ?_
  match a with
  | ⟨0, _⟩ => show win0_1.index t (0 : Fin 2) * 10000 + 1 * p.val = t.val * 10000 + p.val; omega
  | ⟨1, _⟩ => show win0_1.index t (1 : Fin 2) * 15 + 1 * q.val = q.val; omega

/-- WHAT POINT `t` WRITES BACK is block `t` of `pairSq` of the argument array as the region finds it. -/
theorem flushed_eq (c : Dev nD) (t : Fin cfg0.N) :
    (dats m 0 c).flushed 1 t = ((cfg0.win 1).blk t).view.read (Elt Ideal) (pairSq (V m c main_arg0)) := by
  show (cfg0.win 1).cut (grid0.coords t) ((dats m 0 c).after 1 t) = _
  rw [after0_1]
  unfold out0_1
  rw [View.canon_unit_zero zero_offsets]
  simp only [View.ld_unit_zero (S := S10000x15) zero_offsets]
  funext j
  obtain ⟨p, q, rfl⟩ : ∃ (p : Fin 10000) (q : Fin 15), j = ix2 p q := ⟨j 0, j 1, eq_ix2 j⟩
  have ht := point_lt t
  have hr : t.val * 10000 + p.val < 2000000 := by have := p.isLt; omega
  refine (Pay.pay_apply (iblk m c 0 t) p q).trans ?_
  rw [in_block_apply m c t p q hr, in_block_apply m c t p (partner q) hr]
  show _ = pairSq (V m c main_arg0) (((cfg0.win 1).blk t).view.emb (ix2 p q))
  rw [out_block_emb t p q hr]
  exact (pairSq_apply _ _ _).symm

/-- An index of the intermediate array is in point `t`'s block iff each coordinate is in the block's range. -/
theorem mem_block (t : Fin cfg0.N) (i : S2000000x15.Idx) :
    i ∈ ((cfg0.win 1).blk t).view.set ↔ ∀ a : Fin 2, win0_1.index t a * S10000x15.size a ≤ (i a).val ∧ (i a).val < win0_1.index t a * S10000x15.size a + S10000x15.size a := by
  show i ∈ ((View.whole main_v0).slice (win0_1.rect t)).set ↔ _
  rw [View.set_slice_whole, Rect.mem_set_unit]
  exact Iff.rfl

/-- Every row is in some point's block: row `r` in point `r / 10000`'s. -/
theorem blocks_cover (i : S2000000x15.Idx) :
    ∃ t : Fin cfg0.N, (cfg0.win 1).flush t = true ∧ i ∈ ((cfg0.win 1).blk t).view.set := by
  have hi0 : (i 0).val < 2000000 := (i 0).isLt
  have hi1 : (i 1).val < 15 := (i 1).isLt
  obtain ⟨t, ht⟩ : ∃ t : Fin cfg0.N, t.val = (i 0).val / 10000 :=
    ⟨⟨(i 0).val / 10000, lt_of_lt_of_eq (by omega : (i 0).val / 10000 < 200) N_0.symm⟩, rfl⟩
  obtain ⟨-, -, e2, e3⟩ := block_index t
  refine ⟨t, flush0_1 t, ?_⟩
  rw [mem_block]
  intro a
  match a with
  | ⟨0, _⟩ => show win0_1.index t (0 : Fin 2) * 10000 ≤ (i 0).val ∧ (i 0).val < win0_1.index t (0 : Fin 2) * 10000 + 10000; omega
  | ⟨1, _⟩ => show win0_1.index t (1 : Fin 2) * 15 ≤ (i 1).val ∧ (i 1).val < win0_1.index t (1 : Fin 2) * 15 + 15; omega

/-- THE INTERMEDIATE ARRAY after the region: `pairSq` of the argument array. -/
theorem final (c : Dev nD) : (dats m 0 c).arrAt 1 cfg0.N = pairSq (V m c main_arg0) :=
  (dats m 0 c).arrAt_eq_of_cover 1 (pairSq (V m c main_arg0)) (fun t _ => flushed_eq m c t) blocks_cover

/-- The host operation after the region: a unit axis appended. -/
def appendUnit (y : (⟨S2000000x15, .f32⟩ : BufTy).Contents (Elt Ideal)) : (⟨S2000000x15x1, .f32⟩ : BufTy).Contents (Elt Ideal) :=
  broadcastInDim S2000000x15x1 ![0, 1] bcast_S2000000x15_S2000000x15x1_0_1 y

/-- The result buffer after the line that follows the region. -/
theorem tail_eq (c : Dev nD) :
    Pipeline.afterTail₀ cfgs (dats m) 0 (V0 m) [hostOps1] c main_v1
      = appendUnit (pairSq (m ((c.tc : Thread nD τ).loc main_arg0))) := by
  unfold Pipeline.afterTail₀
  show StableHlo.after hostOps1 _ (Proc.devRef .tc main_v1) = _
  after_results
  refine congrArg appendUnit ?_
  exact (Pipeline.withArrays_arr spec0 launch0.win.arr_inj c _ _ 1).trans
    ((final m c).trans (congrArg pairSq (V_main_arg0 m c)))

/-- The result buffer is unscoped and is no window's array: the frame run states it after the line that follows the
    region. -/
theorem result_mem : main_v1 ∈ Pipeline.restRefs sig (cfgs 0).spec :=
  Pipeline.mem_restRefs_of main_v1 rfl (by decide : ∀ w : Fin 2, ((cfgs 0).spec w).arr.view.ref ≠ main_v1)

/-- THE RUN: every weakly fair execution of the kernel's program terminates with the result at `pairSq` of the argument
    with a unit axis appended, and the argument unchanged. -/
theorem run : θ_run defs (onTc (τ := τ) (main (F := Ideal))) ⟨m, fun _ => 0, ρ⟩ fun r => ∀ c : Dev nD,
      r.2.mem ((c.tc : Thread nD τ).loc main_v1) = appendUnit (pairSq (m ((c.tc : Thread nD τ).loc main_arg0)))
      ∧ r.2.mem ((c.tc : Thread nD τ).loc main_arg0) = m ((c.tc : Thread nD τ).loc main_arg0) :=
  (θ_run defs _ _).mono (fun _ h c => ⟨((h c).2 main_v1 result_mem).trans (tail_eq m c),
      ((h c).1 0).trans (((dats m 0 c).arrAt_in 0 rfl _).trans ((A_eq m c 0).trans (V_main_arg0 m c)))⟩)
    (run_main m ρ)

end Cert.KernelIdeal.Hand

end
-- ==== Proof.RefStages.lean ====
/-
  The reference program's intermediate values, named.

  The reference takes, for every row, the entry of the partner keypoint, subtracts it, squares and appends a unit
  axis. The take is spelt out by its lowering: the table of partners as 32-bit words; a negative entry wrapped by
  adding 15; the start indices as a [15, 1] array; per keypoint the test that its start index lies in 0..14; the
  gather of whole columns; and the choice between the gathered entry and a filler where the test fails.
-/
import proofs.«154540_j80831284510870_1_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-! ## The stages, named -/

/-- The table of partner keypoints, as 32-bit words. -/
def table : IVec S15 32 := fun i => lit0 (S15.rowMajor i)

/-- A negative entry wrapped by adding 15 (none of the table's is negative). -/
def wrapped : IVec S15 32 :=
  select (cmpi .slt table (broadcastInDim S15 ![] bcast_S_S15 (constantI S_ 32 0#32)))
    (addi table (broadcastInDim S15 ![] bcast_S_S15 (constantI S_ 32 15#32))) table

/-- The gather's start indices: the wrapped table as a [15, 1] array. -/
def starts : IVec S15x1 32 := broadcastInDim S15x1 ![0] bcast_S15_S15x1_0 wrapped

/-- Per keypoint, whether its start index lies in 0..14. -/
def inRange : IVec S15 1 :=
  Host.reduce IntOp.andi
    (andi (cmpi .sge starts (broadcastInDim S15x1 ![] bcast_S_S15x1 (constantI S_ 32 0#32)))
      (cmpi .sle starts (broadcastInDim S15x1 ![0, 1] bcast_S1x1_S15x1_0_1 (broadcastInDim S1x1 ![1] bcast_S1_S1x1_1 (constantI S1 32 14#32)))))
    (constantI S_ 1 1#1) reducesTo_S15x1_S15_d1 h_S_

/-- The taken array: the gathered entry where the keypoint's start index is in range, a filler elsewhere. -/
def taken (x : (⟨S2000000x15, .f32⟩ : BufTy).Contents (Elt F)) : (⟨S2000000x15, .f32⟩ : BufTy).Contents (Elt F) :=
  select (broadcastInDim S2000000x15 ![1] bcast_S15_S2000000x15_1 inRange)
    (Host.gather gather_S2000000x15_S15x1_S2000000x15_0_1_n_n_1_1_20000001 x starts)
    (broadcastInDim S2000000x15 ![] bcast_S_S2000000x15 (constant S_ .f32 0x7FC00000#32))

/-- The squared difference of the array and its taken copy, before the unit axis is appended. -/
def refSq (x : (⟨S2000000x15, .f32⟩ : BufTy).Contents (Elt F)) : (⟨S2000000x15, .f32⟩ : BufTy).Contents (Elt F) :=
  mulf (subf x (taken x)) (subf x (taken x))

/-- The reference's result as a function of its argument. -/
def refOut (x : (⟨S2000000x15, .f32⟩ : BufTy).Contents (Elt F)) : (⟨S2000000x15x1, .f32⟩ : BufTy).Contents (Elt F) :=
  broadcastInDim S2000000x15x1 ![0, 1] bcast_S2000000x15_S2000000x15x1_0_1 (refSq x)

end Cert.ReferenceIdeal.Hand

end
-- ==== Proof.RefRun.lean ====
/-
  The reference program run from start to end.

  Its @main is a straight line of twenty-seven host operations once the two outlined functions are read at their
  call sites: the table of partner keypoints; the take along the keypoint axis (a negative index wrapped by adding 15,
  the start indices as a [15, 1] array, the test that each lies in 0..14, the gather, the broadcast of the test over
  the rows, and the choice between the gathered entry and a filler where the test fails); the subtraction; the
  product of the difference with itself; the appended unit axis. Every weakly fair execution terminates with the
  result buffer at that composition of the argument array, `refOut`, and the argument unchanged.
-/
import proofs.«154540_j80831284510870_1_alg».proof.Proof.RefStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The run -/

/-- @main's twenty-seven operations, in order, the outlined functions' lines at their call sites. -/
abbrev ops : List (HloOp τ sig (Elt F)) :=
  [ nullary main_c (fun i => lit0 (S15.rowMajor i)),
    TRef.nullary main_call0.c (constantI S_ 32 0#32),
    TRef.unary main_call0.c main_call0.v0 (broadcastInDim S15 ![] bcast_S_S15),
    TRef.binary (.of main_c) main_call0.v0 main_call0.v1 (cmpi .slt),
    TRef.nullary main_call0.c_0 (constantI S_ 32 15#32),
    TRef.unary main_call0.c_0 main_call0.v2 (broadcastInDim S15 ![] bcast_S_S15),
    TRef.binary (.of main_c) main_call0.v2 main_call0.v3 addi,
    TRef.ternary main_call0.v1 main_call0.v3 (.of main_c) main_call0.call0.v0 select,
    TRef.unary main_call0.call0.v0 main_call0.v5 (broadcastInDim S15x1 ![0] bcast_S15_S15x1_0),
    TRef.nullary main_call0.c_1 (constantI S1 32 14#32),
    TRef.nullary main_call0.c_2 (constantI S_ 32 0#32),
    TRef.unary main_call0.c_2 main_call0.v6 (broadcastInDim S15x1 ![] bcast_S_S15x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S15x1 ![0, 1] bcast_S1x1_S15x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S15x1_S15_d1 h_S_),
    TRef.binary (.of main_arg0) main_call0.v5 main_call0.v13 (fun x i => Host.gather gather_S2000000x15_S15x1_S2000000x15_0_1_n_n_1_1_20000001 x i),
    TRef.unary main_call0.v12 main_call0.v14 (broadcastInDim S2000000x15 ![1] bcast_S15_S2000000x15_1),
    TRef.nullary main_call0.cst (constant S_ .f32 0x7FC00000#32),
    TRef.unary main_call0.cst main_call0.v15 (broadcastInDim S2000000x15 ![] bcast_S_S2000000x15),
    TRef.ternary main_call0.v14 main_call0.v13 main_call0.v15 main_call0.v16 select,
    binary main_arg0 main_v0 main_v1 (subf : (⟨S2000000x15, .f32⟩ : BufTy).Contents (Elt F) → (⟨S2000000x15, .f32⟩ : BufTy).Contents (Elt F) → (⟨S2000000x15, .f32⟩ : BufTy).Contents (Elt F)),
    binary main_v1 main_v1 main_v2 (mulf : (⟨S2000000x15, .f32⟩ : BufTy).Contents (Elt F) → (⟨S2000000x15, .f32⟩ : BufTy).Contents (Elt F) → (⟨S2000000x15, .f32⟩ : BufTy).Contents (Elt F)),
    unary main_v2 main_v3 (broadcastInDim S2000000x15x1 ![0, 1] bcast_S2000000x15_S2000000x15x1_0_1 : (⟨S2000000x15, .f32⟩ : BufTy).Contents (Elt F) → (⟨S2000000x15x1, .f32⟩ : BufTy).Contents (Elt F)) ]

set_option maxRecDepth 1024 in
/-- @main is that straight line: the two functions' bodies unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., binary_bufs_sub .., unary_bufs_sub ..⟩

attribute [local irreducible] Host.reduce Host.gather select cmpi addi andi broadcastInDim subf mulf constant constantI in
set_option maxRecDepth 8192 in
set_option maxHeartbeats 400000 in
/-- The fold of the twenty-seven operations, read at the result buffer, is `refOut` of the argument buffer's contents:
    each operation's result decides whether the buffer read is the one it writes, and the typed references' casts are
    the identity at these literal references. Every pure operation is kept folded meanwhile: both sides apply the same operations to the
    same operands, so the equation never looks inside one. -/
theorem out_eq (V : Valuation τ sig (Elt F)) :
    after ops V (main_v3 : DevRef τ sig) = refOut (V (main_arg0 : DevRef τ sig)) := by
  simp only [after_cons, after_nil]
  rfl

/-- No operation writes the argument buffer. -/
theorem arg0_eq (V : Valuation τ sig (Elt F)) :
    after ops V (main_arg0 : DevRef τ sig) = V (main_arg0 : DevRef τ sig) := by
  simp only [after_cons, after_nil]
  rfl

/-- On every device, from any memory with zero counters: every weakly fair execution of @main terminates with the
    result at `refOut` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v3).trans (out_eq _), (h c main_arg0).trans (arg0_eq _)⟩)
    (run_seq scopedRefs_eq scopedSems_eq defs main (fun _ => ops) main_eq (fun _ => ops_sub) m ρ)

end Cert.ReferenceIdeal.Hand

end
-- ==== Proof.LibGatherCols.lean ====
/-
  A gather of whole columns, read at an index.

  What `jnp.take(x, idx, axis=1)` of an array `x : [R, C]` at an integer vector `idx : [K]` lowers to: a gather
  with the start indices as a `[K, 1]` array, offset axis 0 (a slice is a whole column, `R` rows by 1), the
  keypoint axis 1 collapsed and named by the start index. Result entry `(b, k)` is `x` at row `b` and at the column
  the start index `idx[k, 0]` names, read as a signed integer and clamped into `[0, C - 1]`.
-/
import Idealize.ShloMosaic.Lib.ValueIdx

noncomputable section

namespace Idealize.ShloMosaic.GatherCols

open Idealize.ShloMosaic Idealize.ShloMosaic.ValueIdx

variable {α : Type}

/-- The dimension numbers of a take along axis 1: operand `[R, C]`, start indices `[K, 1]`, result `[R, K]`; their
    conditions `wf` are decided on a program's literal shapes. -/
abbrev takeColsDims (R C K : Nat) (wf : GatherDims.WF ⟨2, ![R, C]⟩ ⟨2, ![K, 1]⟩ ⟨2, ![R, K]⟩ [0] [1] [] [1] [] 1 ![R, 1]) :
    GatherDims ⟨2, ![R, C]⟩ ⟨2, ![K, 1]⟩ ⟨2, ![R, K]⟩ where
  offsetDims := [0]
  collapsedSliceDims := [1]
  operandBatchingDims := []
  startIndicesBatchingDims := []
  startIndexMap := [1]
  indexVectorDim := 1
  sliceSizes := ![R, 1]
  wf := wf

/-- THE GATHER READ AT `(b, k)`: the operand at row `b` and at the column the start index `idx[k, 0]` names, read
    signed and clamped into `[0, C - 1]`. -/
theorem gather_takeCols_apply {R C K w : Nat} (hC : 0 < C)
    (wf : GatherDims.WF ⟨2, ![R, C]⟩ ⟨2, ![K, 1]⟩ ⟨2, ![R, K]⟩ [0] [1] [] [1] [] 1 ![R, 1])
    (x : (⟨2, ![R, C]⟩ : Shape).Idx → α) (idx : IVec ⟨2, ![K, 1]⟩ w) (b : Fin R) (k : Fin K) :
    Host.gather (takeColsDims R C K wf) x idx (ix2 b k)
      = x (ix2 b ⟨min (idx (ix2 k (0 : Fin 1))).toInt.toNat (C - 1), by omega⟩) := by
  unfold Host.gather
  congr 1
  funext a
  refine Fin.ext ?_
  match a with
  | ⟨0, _⟩ =>
    show (takeColsDims R C K wf).start (ix2 b k) idx 0 + (takeColsDims R C K wf).batchCoord (ix2 b k) 0
      + (takeColsDims R C K wf).offCoord (ix2 b k) 0 = b.val
    rw [GatherDims.batchCoord_eq_zero _ _ _ List.not_mem_nil]
    unfold GatherDims.start
    rw [dif_neg (by decide : (0 : Fin 2) ∉ [(1 : Fin 2)])]
    unfold GatherDims.offCoord
    rw [dif_pos (((takeColsDims R C K wf).mem_sKept 0).2 ⟨(by decide : (0 : Fin 2) ∉ [(1 : Fin 2)]), List.not_mem_nil⟩)]
    simp only [Nat.zero_add, Nat.add_zero]
    rfl
  | ⟨1, _⟩ =>
    show (takeColsDims R C K wf).start (ix2 b k) idx 1 + (takeColsDims R C K wf).batchCoord (ix2 b k) 1
      + (takeColsDims R C K wf).offCoord (ix2 b k) 1 = min (idx (ix2 k (0 : Fin 1))).toInt.toNat (C - 1)
    rw [GatherDims.batchCoord_eq_zero _ _ _ List.not_mem_nil,
      GatherDims.offCoord_eq_zero _ _ _ (fun h => (((takeColsDims R C K wf).mem_sKept 1).mp h).1 (List.mem_singleton.mpr rfl))]
    simp only [Nat.add_zero]
    unfold GatherDims.start
    rw [dif_pos (show (1 : Fin 2) ∈ (takeColsDims R C K wf).startIndexMap from List.mem_singleton.mpr rfl)]
    have hsi : (takeColsDims R C K wf).siIdx (ix2 b k) ⟨List.idxOf (1 : Fin 2) (takeColsDims R C K wf).startIndexMap,
        List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl

end Idealize.ShloMosaic.GatherCols

end
-- ==== Proof.RefValue.lean ====
/-
  The reference's squared difference is the specification, index by index.

  Every entry of the partner table lies in 0..14, so nothing is wrapped, the in-range test holds at every keypoint
  and the filler is never chosen; the gather of whole columns reads, at row `b` and keypoint `k`, the entry of row `b`
  at the column the table names, `partner k`. Hence the taken array at `(b, k)` is `x[b, partner k]`, and the
  product of the difference with itself is `pairSq x`.
-/
import proofs.«154540_j80831284510870_1_alg».proof.Proof.RefStages
import proofs.«154540_j80831284510870_1_alg».proof.Proof.PairSpec
import proofs.«154540_j80831284510870_1_alg».proof.Proof.LibGatherCols
import Idealize.ShloMosaic.Lib.Pipeline.Value

noncomputable section

namespace Cert.ReferenceIdeal.Hand

open Cert.ReferenceIdeal Cert.ReferenceIdeal.Gen Idealize.ShloMosaic Idealize.ShloMosaic.ValueIdx
open Idealize.ShloMosaic.GatherCols Cert.SymPair

/-- The start index of keypoint `k`, read as a signed integer, is its partner's number. -/
theorem starts_apply : ∀ k : Fin 15, (starts (ix2 k (0 : Fin 1))).toInt.toNat = (partner k).val := by
  decide +kernel

/-- Every keypoint's start index is in range. -/
theorem inRange_apply : ∀ k : Fin 15, inRange (ix1 k) = 1#1 := by
  decide +kernel

/-- THE TAKEN ARRAY at row `b`, keypoint `k`: the entry of row `b` at the partner keypoint. -/
theorem taken_apply (x : (⟨S2000000x15, .f32⟩ : BufTy).Contents (Elt Ideal)) (b : Fin 2000000) (k : Fin 15) :
    taken x (ix2 b k) = x (ix2 b (partner k)) := by
  unfold taken
  rw [select_apply]
  have hmask : broadcastInDim S2000000x15 ![1] bcast_S15_S2000000x15_1 inRange (ix2 b k) = 1#1 :=
    (broadcastInDim_apply _ _ _ (ix2 b k) (ix1 k) (fun a => by match a with | ⟨0, _⟩ => rfl)).trans (inRange_apply k)
  rw [hmask, select_one]
  refine (gather_takeCols_apply (R := 2000000) (C := 15) (K := 15) (by decide)
    gather_S2000000x15_S15x1_S2000000x15_0_1_n_n_1_1_20000001_wf x starts b k).trans ?_
  refine congrArg (fun q => x (ix2 b q)) (Fin.ext ?_)
  show min (starts (ix2 k (0 : Fin 1))).toInt.toNat (15 - 1) = (partner k).val
  rw [starts_apply k]
  have := (partner k).isLt
  omega

/-- The reference's squared difference is `pairSq`. -/
theorem refSq_eq (x : (⟨S2000000x15, .f32⟩ : BufTy).Contents (Elt Ideal)) : refSq (F := Ideal) x = pairSq x := by
  funext i
  obtain ⟨b, k, rfl⟩ : ∃ (b : Fin 2000000) (k : Fin 15), i = ix2 b k := ⟨i 0, i 1, eq_ix2 i⟩
  unfold refSq
  rw [mulf_apply, subf_apply, taken_apply x b k, pairSq_apply]
  rfl

end Cert.ReferenceIdeal.Hand

end
-- ==== Proof.lean ====
/-
  The kernel and its reference compute the same array of extended reals.

  Over an input `x` of two million rows by fifteen keypoints, with the fixed left/right pairing `partner` of the
  keypoints, both programs return `(x[b,k] - x[b, partner k]) * (x[b,k] - x[b, partner k])` at row `b`, keypoint `k`,
  with a unit axis appended (`Cert.SymPair.pairSq`).

  The kernel walks the rows in 200 blocks of ten thousand; in each block it rebuilds the partner columns by slicing the
  block into its fifteen columns and laying them side by side in the partners' order, subtracts and squares. A row's
  partners lie in the row itself, so each block written back is a block of `pairSq x`, and the blocks tile the array
  (`Cert.KernelIdeal.Hand.run`). The reference takes the partner columns by a gather along the keypoint axis whose
  start indices are the partner table; every table entry lies in 0..14, so no index is wrapped or clamped and the
  out-of-range filler is never chosen (`Cert.ReferenceIdeal.Hand.refSq_eq`). Subtraction and multiplication are the
  same operations of the extended reals on both sides, so the two results agree entry by entry for EVERY input: the
  finiteness of the input is not used. No operation of the kernel was rewritten when it was idealized, so there is
  nothing to preserve.
-/
import proofs.«154540_j80831284510870_1_alg».proof.Defs
import proofs.«154540_j80831284510870_1_alg».proof.Proof.Gen.Kernel
import proofs.«154540_j80831284510870_1_alg».proof.Proof.Gen.Kernel.Frame
import proofs.«154540_j80831284510870_1_alg».proof.Proof.Gen.KernelIdeal
import proofs.«154540_j80831284510870_1_alg».proof.Proof.Gen.KernelIdeal.Frame
import proofs.«154540_j80831284510870_1_alg».proof.Proof.Gen.ReferenceIdeal
import proofs.«154540_j80831284510870_1_alg».proof.Proof.Gen.Pre_finite_inputs
import proofs.«154540_j80831284510870_1_alg».proof.Proof.KernelValue
import proofs.«154540_j80831284510870_1_alg».proof.Proof.RefRun
import proofs.«154540_j80831284510870_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its argument unchanged: its run with the result forgotten. -/
theorem frame_reference : Cert.frame_ReferenceIdeal := fun m ρ _ =>
  (θ_run Cert.ReferenceIdeal.defs _ _).mono (fun _ h c => (h c).2) (Cert.ReferenceIdeal.Hand.run (F := Ideal) m ρ)

/-- Nothing was rewritten, so there is nothing to preserve. -/
theorem preserves : Cert.preserves_Kernel_KernelIdeal := trivial

/-- From memories agreeing on the argument both programs end with `pairSq` of it, a unit axis appended: the kernel by
    its blocks (`Hand.run`), the reference by its take (`refSq_eq`), the appended axis the same operation on both. -/
theorem algebraic : Cert.algebraic_KernelIdeal_ReferenceIdeal := by
  intro m ρ m' ρ' _ hagree
  refine ⟨fun c => Cert.KernelIdeal.Hand.appendUnit (Cert.SymPair.pairSq
    (m ((c.tc : Thread Cert.KernelIdeal.nD Cert.KernelIdeal.τ).loc Cert.KernelIdeal.main_arg0))),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [hagree c]
  exact congrArg (broadcastInDim Cert.ReferenceIdeal.S2000000x15x1 ![0, 1]
      Cert.ReferenceIdeal.Gen.bcast_S2000000x15_S2000000x15x1_0_1 :
      (⟨Cert.ReferenceIdeal.S2000000x15, .f32⟩ : BufTy).Contents (Elt Ideal)
        → (⟨Cert.ReferenceIdeal.S2000000x15x1, .f32⟩ : BufTy).Contents (Elt Ideal))
    (Cert.ReferenceIdeal.Hand.refSq_eq _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
